-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x384x32x32 : Shape := ⟨4, ![8, 384, 32, 32]⟩
abbrev S768x384 : Shape := ⟨2, ![768, 384]⟩
abbrev S_ : Shape := ⟨0, ![]⟩

class Facts : Prop where
  bcast_S_S8x384x32x32 : S_.BroadcastsInDim S8x384x32x32 (![] : Fin 0 → Fin S8x384x32x32.rank)
  reducesTo_S8x384x32x32_S_d0_1_2_3 : S8x384x32x32.ReducesTo [0, 1, 2, 3] S_
  h_S_ : 0 < S_.numel
  bcast_S_S768x384 : S_.BroadcastsInDim S768x384 (![] : Fin 0 → Fin S768x384.rank)
  reducesTo_S768x384_S_d0_1 : S768x384.ReducesTo [0, 1] S_

variable [Facts]

def fn {F : FTy → Type} [FloatOps F] (main_arg0 : FVec F S8x384x32x32 .f32) (main_arg1 : FVec F S768x384 .f32) (main_arg2 : FVec F S768x384 .f32) : IVec S_ 1 :=
  let main_v0 : FVec F S8x384x32x32 .f32 := Host.absf main_arg0
  let main_cst : FVec F S_ .f32 := constant S_ .f32 0x7F800000#32
  let main_v1 : FVec F S8x384x32x32 .f32 := broadcastInDim S8x384x32x32 ![] bcast_S_S8x384x32x32 main_cst
  let main_v2 : IVec S8x384x32x32 1 := cmpf .olt main_v0 main_v1
  let main_c : IVec S_ 1 := constantI S_ 1 1#1
  let main_v3 : IVec S_ 1 := (fun x v => Host.reduce IntOp.andi x v reducesTo_S8x384x32x32_S_d0_1_2_3 h_S_) main_v2 main_c
  let main_v4 : FVec F S768x384 .f32 := Host.absf main_arg1
  let main_cst_0 : FVec F S_ .f32 := constant S_ .f32 0x7F800000#32
  let main_v5 : FVec F S768x384 .f32 := broadcastInDim S768x384 ![] bcast_S_S768x384 main_cst_0
  let main_v6 : IVec S768x384 1 := cmpf .olt main_v4 main_v5
  let main_c_1 : IVec S_ 1 := constantI S_ 1 1#1
  let main_v7 : IVec S_ 1 := (fun x v => Host.reduce IntOp.andi x v reducesTo_S768x384_S_d0_1 h_S_) main_v6 main_c_1
  let main_v8 : IVec S_ 1 := andi main_v3 main_v7
  let main_v9 : FVec F S768x384 .f32 := Host.absf main_arg2
  let main_cst_2 : FVec F S_ .f32 := constant S_ .f32 0x7F800000#32
  let main_v10 : FVec F S768x384 .f32 := broadcastInDim S768x384 ![] bcast_S_S768x384 main_cst_2
  let main_v11 : IVec S768x384 1 := cmpf .olt main_v9 main_v10
  let main_c_3 : IVec S_ 1 := constantI S_ 1 1#1
  let main_v12 : IVec S_ 1 := (fun x v => Host.reduce IntOp.andi x v reducesTo_S768x384_S_d0_1 h_S_) main_v11 main_c_3
  let main_v13 : IVec S_ 1 := andi main_v8 main_v12
  main_v13
-- ==== Kernel.lean ====
abbrev S8x384x32x32 : Shape := ⟨4, ![8, 384, 32, 32]⟩
abbrev S768x384 : Shape := ⟨2, ![768, 384]⟩
abbrev S384x8192 : Shape := ⟨2, ![384, 8192]⟩
abbrev S384x8x1024 : Shape := ⟨3, ![384, 8, 1024]⟩
abbrev S8x1024x384 : Shape := ⟨3, ![8, 1024, 384]⟩
abbrev S8x1024x768 : Shape := ⟨3, ![8, 1024, 768]⟩
abbrev S1x1024x384 : Shape := ⟨3, ![1, 1024, 384]⟩
abbrev S1x1024x768 : Shape := ⟨3, ![1, 1024, 768]⟩
abbrev S1024x384 : Shape := ⟨2, ![1024, 384]⟩
abbrev S1024x768 : Shape := ⟨2, ![1024, 768]⟩
abbrev S8x768x1024 : Shape := ⟨3, ![8, 768, 1024]⟩
abbrev S8x768x32x32 : Shape := ⟨4, ![8, 768, 32, 32]⟩

abbrev nBuf : Space → Nat
  | .hbm => 11
  | .vmem => 6
  | .smem => 0
  | _ => 0

abbrev bufTy : (tb : Table) → Fin (tcTables nBuf tb) → BufTy
  | .hbm, ⟨0, _⟩ => ⟨S8x384x32x32, .f32⟩
  | .hbm, ⟨1, _⟩ => ⟨S768x384, .f32⟩
  | .hbm, ⟨2, _⟩ => ⟨S768x384, .f32⟩
  | .hbm, ⟨3, _⟩ => ⟨S384x8192, .f32⟩
  | .hbm, ⟨4, _⟩ => ⟨S384x8x1024, .f32⟩
  | .hbm, ⟨5, _⟩ => ⟨S8x1024x384, .f32⟩
  | .hbm, ⟨6, _⟩ => ⟨S8x1024x384, .bf16⟩
  | .hbm, ⟨7, _⟩ => ⟨S8x1024x768, .bf16⟩
  | .hbm, ⟨8, _⟩ => ⟨S8x768x1024, .bf16⟩
  | .hbm, ⟨9, _⟩ => ⟨S8x768x1024, .f32⟩
  | .hbm, ⟨10, _⟩ => ⟨S8x768x32x32, .f32⟩
  | .local _ .vmem, ⟨0, _⟩ => ⟨S1x1024x384, .bf16⟩
  | .local _ .vmem, ⟨1, _⟩ => ⟨S1x1024x384, .bf16⟩
  | .local _ .vmem, ⟨2, _⟩ => ⟨S768x384, .f32⟩
  | .local _ .vmem, ⟨3, _⟩ => ⟨S768x384, .f32⟩
  | .local _ .vmem, ⟨4, _⟩ => ⟨S1x1024x768, .bf16⟩
  | .local _ .vmem, ⟨5, _⟩ => ⟨S1x1024x768, .bf16⟩
  | _, _ => ⟨S8x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x384x32x32_S384x8192 : S8x384x32x32.ShapeCasts S384x8192
  shapeCasts_S384x8192_S384x8x1024 : S384x8192.ShapeCasts S384x8x1024
  transposes_S384x8x1024_S8x1024x384_1_2_0 : S384x8x1024.Transposes [1, 2, 0] S8x1024x384
  bitsLt_bf16_f32 : FTy.bits .bf16 < FTy.bits .f32
  inb_S768x384_S768x384_0_0 : ∀ a, (![0, 0] : Fin 2 → Nat) a + S768x384.size a ≤ S768x384.size a
  h_S768x384 : 0 < S768x384.numel
  inb_S1x1024x384_S1x1024x384_0_0_0 : ∀ a, (![0, 0, 0] : Fin 3 → Nat) a + S1x1024x384.size a ≤ S1x1024x384.size a
  h_S1x1024x384 : 0 < S1x1024x384.numel
  shapeCasts_S1x1024x384_S1024x384 : S1x1024x384.ShapeCasts S1024x384
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024x768_S1x1024x768 : S1024x768.ShapeCasts S1x1024x768
  packedbf16_S1x1024x768_S1x1024x768_0_0_0 : (Rect.unit (s := S1x1024x768) ![0, 0, 0] S1x1024x768.size inb_S1x1024x768_S1x1024x768_0_0_0).PackedRows (EltTy.packing .bf16)
  transposes_S8x1024x768_S8x768x1024_0_2_1 : S8x1024x768.Transposes [0, 2, 1] S8x768x1024
  shapeCasts_S8x768x1024_S8x768x32x32 : S8x768x1024.ShapeCasts S8x768x32x32
  dot_S1024x384_S768x384_S1024x768_1_1_0_0_n_n_wf : DotDims.WF S1024x384 S768x384 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x384.size a ≤ S8x1024x384.size a
  hwx0_0 : ∀ i : grid0.Coords, EltTy.bits .bf16 = 32 ∨ (Rect.block (s := S8x1024x384) S1x1024x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .f32 = 32 ∨ (Rect.block (s := S768x384) S768x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x384.size a ≤ S768x384.size a
  hwx0_2 : ∀ i : grid0.Coords, EltTy.bits .f32 = 32 ∨ (Rect.block (s := S768x384) S768x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x768.size a ≤ S8x1024x768.size a
  hwx0_3 : ∀ i : grid0.Coords, EltTy.bits .bf16 = 32 ∨ (Rect.block (s := S8x1024x768) S1x1024x768.size (cc0_transform_3 i) (hinb0_3 i)).WholeWords (EltTy.packing .bf16)

variable [Facts₀]

def dot_S1024x384_S768x384_S1024x768_1_1_0_0_n_n : DotDims S1024x384 S768x384 S1024x768 where
  lhsContracting := [1]
  rhsContracting := [1]
  lhsNonContracting := [0]
  rhsNonContracting := [0]
  lhsBatch := []
  rhsBatch := []
  wf := dot_S1024x384_S768x384_S1024x768_1_1_0_0_n_n_wf

abbrev win0_0 : Pipeline.Window sig grid0 :=
  Pipeline.Window.ofSpec (Memref.whole main_v3) S1x1024x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x384x32x32 : Shape := ⟨4, ![8, 384, 32, 32]⟩
abbrev S768x384 : Shape := ⟨2, ![768, 384]⟩
abbrev S384x8192 : Shape := ⟨2, ![384, 8192]⟩
abbrev S768x8192 : Shape := ⟨2, ![768, 8192]⟩
abbrev S768x8x32x32 : Shape := ⟨4, ![768, 8, 32, 32]⟩
abbrev S8x768x32x32 : Shape := ⟨4, ![8, 768, 32, 32]⟩

abbrev nBuf : Space → Nat
  | .hbm => 8
  | .vmem => 0
  | .smem => 0
  | _ => 0

abbrev bufTy : (tb : Table) → Fin (tcTables nBuf tb) → BufTy
  | .hbm, ⟨0, _⟩ => ⟨S8x384x32x32, .f32⟩
  | .hbm, ⟨1, _⟩ => ⟨S768x384, .f32⟩
  | .hbm, ⟨2, _⟩ => ⟨S768x384, .f32⟩
  | .hbm, ⟨3, _⟩ => ⟨S384x8192, .f32⟩
  | .hbm, ⟨4, _⟩ => ⟨S768x384, .f32⟩
  | .hbm, ⟨5, _⟩ => ⟨S768x8192, .f32⟩
  | .hbm, ⟨6, _⟩ => ⟨S768x8x32x32, .f32⟩
  | .hbm, ⟨7, _⟩ => ⟨S8x768x32x32, .f32⟩
  | _, _ => ⟨S8x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  shapeCasts_S8x384x32x32_S384x8192 : S8x384x32x32.ShapeCasts S384x8192
  shapeCasts_S768x8192_S768x8x32x32 : S768x8192.ShapeCasts S768x8x32x32
  transposes_S768x8x32x32_S8x768x32x32_1_0_2_3 : S768x8x32x32.Transposes [1, 0, 2, 3] S8x768x32x32
  dot_S768x384_S384x8192_S768x8192_1_0_0_1_n_n_wf : DotDims.WF S768x384 S384x8192 S768x8192 [1] [0] [0] [1] [] []

variable [Facts₀]

def dot_S768x384_S384x8192_S768x8192_1_0_0_1_n_n : DotDims S768x384 S384x8192 S768x8192 where
  lhsContracting := [1]
  rhsContracting := [0]
  lhsNonContracting := [0]
  rhsNonContracting := [1]
  lhsBatch := []
  rhsBatch := []
  wf := dot_S768x384_S384x8192_S768x8192_1_0_0_1_n_n_wf

class Facts : Prop extends Facts₀ where

variable [Facts]
-- ==== Proof.Spec.lean ====
/-
  The function both programs compute, index by index, on the extended reals.

  The input `x` of shape [8, 384, 32, 32] is read through its row-major FLAT position: entry `(k, n)` of the
  [384, 8192] view of the same memory sits at flat position `k * 8192 + n`, and a column `n` is split as
  `n = b * 1024 + q` with `b < 8` the batch slot and `q < 1024` the pixel (`q = h * 32 + w`). With the masked
  weight `kv (f, k) * mk (f, k)`, output entry `(b, f, h, w)` is the sum over the 384 flat rows `k` of
  `x[k * 8192 + b * 1024 + h * 32 + w] * (kv (f, k) * mk (f, k))`.
-/
import Idealize.ShloMosaic.PureOps.Ideal
import Idealize.ShloMosaic.Lib.ValueIdx

noncomputable section

namespace Cert.MaskedConv

open Idealize.ShloMosaic Idealize.ShloMosaic.ValueIdx

/-- The input's shape, the weight's and the mask's, and the result's. -/
abbrev SIn : Shape := ⟨4, ![8, 384, 32, 32]⟩
abbrev SW : Shape := ⟨2, ![768, 384]⟩
abbrev SOut : Shape := ⟨4, ![8, 768, 32, 32]⟩

/-- The index of the input entry at flat position `k * 8192 + b * 1024 + q`: with `r = k * 8 + b` the flat
    position is `r * 1024 + q`, so the coordinates are `(r / 384, r % 384, q / 32, q % 32)`. -/
def src (k : Fin 384) (b : Fin 8) (q : Fin 1024) : SIn.Idx :=
  ix4 (⟨(k.val * 8 + b.val) / 384, by have := k.isLt; have := b.isLt; omega⟩ : Fin 8)
    (⟨(k.val * 8 + b.val) % 384, by omega⟩ : Fin 384)
    (⟨q.val / 32, by have := q.isLt; omega⟩ : Fin 32)
    (⟨q.val % 32, by omega⟩ : Fin 32)

/-- The pixel `h * 32 + w` of a row `h` and a column `w`. -/
def pix (h w : Fin 32) : Fin 1024 := ⟨h.val * 32 + w.val, by have := h.isLt; have := w.isLt; omega⟩

/-- One output entry, at batch slot `b`, filter `f` and pixel `q`: the sum over the flat rows. -/
def entry (x : FVec Ideal SIn .f32) (kv mk : FVec Ideal SW .f32) (b : Fin 8) (f : Fin 768) (q : Fin 1024) : EReal :=
  ∑ k : Fin 384, x (src k b q) * (kv (ix2 f k) * mk (ix2 f k))

/-- The whole result. -/
def G (x : FVec Ideal SIn .f32) (kv mk : FVec Ideal SW .f32) : FVec Ideal SOut .f32 :=
  fun i => entry x kv mk (i 0) (i 1) (pix (i 2) (i 3))

theorem G_ix4 (x : FVec Ideal SIn .f32) (kv mk : FVec Ideal SW .f32) (b : Fin 8) (f : Fin 768) (h w : Fin 32) :
    G x kv mk (ix4 b f h w) = entry x kv mk b f (pix h w) := rfl

end Cert.MaskedConv

end
-- ==== Proof.RefIsG.lean ====
/-
  The reference's result is the specification's function.

  The reference multiplies the weight by the mask, takes the [768, 384] × [384, 8192] product against the flat view
  of the input, splits the 8192 columns as (8, 32, 32) and swaps the first two axes. Read at `(b, f, h, w)` through the
  stages: the swap reads `(f, b, h, w)`, the split reads row `f`, column `b * 1024 + h * 32 + w`, the product is
  the sum over `k` of `(kv (f, k) * mk (f, k)) * flat (k, b * 1024 + h * 32 + w)`, and the flat view reads the input at
  flat position `k * 8192 + b * 1024 + h * 32 + w`. The two factors commute.
-/
import proofs.«127183_g33251636806223_cont_8to1_b_888_15_alg».proof.Proof.Gen.ReferenceIdeal.Read
import proofs.«127183_g33251636806223_cont_8to1_b_888_15_alg».proof.Proof.Spec

noncomputable section

namespace Cert.ReferenceIdeal.RefValue

open Idealize.ShloMosaic Idealize.ShloMosaic.ValueIdx Cert.ReferenceIdeal Cert.ReferenceIdeal.Read Cert.MaskedConv

/-- The weight's entry the product reads at result `(b, f, h, w)` and flat row `k`: `(f, k)`. -/
theorem lidx_eq (b : Fin 8) (f : Fin 768) (h w : Fin 32) (k : Fin 384) :
    lidx_main_v2 (idx_main_v3 (idx_main_v4 (ix4 b f h w))) k = ix2 f k := by
  funext a; apply Fin.ext
  match a with
  | ⟨0, _⟩ =>
    show (((f.val * 8 + b.val) * 32 + h.val) * 32 + w.val) / 8192 = f.val
    have := b.isLt; have := h.isLt; have := w.isLt; omega
  | ⟨1, _⟩ => rfl

/-- The input's entry it reads there: the one at flat position `k * 8192 + b * 1024 + h * 32 + w`. -/
theorem ridx_eq (b : Fin 8) (f : Fin 768) (h w : Fin 32) (k : Fin 384) :
    idx_main_v0 (ridx_main_v2 (idx_main_v3 (idx_main_v4 (ix4 b f h w))) k) = src k b (pix h w) := by
  have hb := b.isLt; have hh := h.isLt; have hw := w.isLt; have hk := k.isLt; have hf := f.isLt
  have hn : (((f.val * 8 + b.val) * 32 + h.val) * 32 + w.val) % 8192 = b.val * 1024 + (h.val * 32 + w.val) := by omega
  funext a; apply Fin.ext
  match a with
  | ⟨0, _⟩ =>
    show (k.val * 8192 + (((f.val * 8 + b.val) * 32 + h.val) * 32 + w.val) % 8192) / 393216 = (k.val * 8 + b.val) / 384
    rw [hn]; omega
  | ⟨1, _⟩ =>
    show (k.val * 8192 + (((f.val * 8 + b.val) * 32 + h.val) * 32 + w.val) % 8192) / 1024 % 384 = (k.val * 8 + b.val) % 384
    rw [hn]; omega
  | ⟨2, _⟩ =>
    show (k.val * 8192 + (((f.val * 8 + b.val) * 32 + h.val) * 32 + w.val) % 8192) / 32 % 32 = (h.val * 32 + w.val) / 32
    rw [hn]; omega
  | ⟨3, _⟩ =>
    show (k.val * 8192 + (((f.val * 8 + b.val) * 32 + h.val) * 32 + w.val) % 8192) % 32 = (h.val * 32 + w.val) % 32
    rw [hn]; omega

/-- The reference's last stage is the specification's function of the three arguments. -/
theorem ref_eq (x0 : FVec Ideal SIn .f32) (x1 x2 : FVec Ideal SW .f32) :
    val_main_v4 (F := Ideal) x0 x1 x2 = G x0 x1 x2 := by
  funext i
  obtain ⟨b, f, h, w, rfl⟩ : ∃ (b : Fin 8) (f : Fin 768) (h w : Fin 32), i = ix4 b f h w :=
    ⟨i 0, i 1, i 2, i 3, eq_ix4 i⟩
  rw [val_main_v4_apply, val_main_v3_apply, val_main_v2_apply, G_ix4]
  unfold entry
  refine Finset.sum_congr rfl fun k _ => ?_
  rw [val_main_v1_apply, val_main_v0_apply, lidx_eq, ridx_eq]
  exact mul_comm _ _

end Cert.ReferenceIdeal.RefValue

end
-- ==== Proof.Payload.lean ====
/-
  What the kernel body stores, at an index, on the extended reals.

  The body multiplies the weight block by the mask block, and contracts the input block `[1024, 384]` with that
  product `[768, 384]` over the SECOND axis of both: result entry `(q, f)` is the sum over the 384 channels `k` of
  `input (q, k) * (weight (f, k) * mask (f, k))`, into a zero accumulator. The casts between number formats are the
  identity, and the two shape casts only drop and add the block's leading unit axis.
-/
import proofs.«127183_g33251636806223_cont_8to1_b_888_15_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Conv

open Idealize.ShloMosaic Idealize.ShloMosaic.ValueIdx Cert.KernelIdeal Cert.KernelIdeal.Gen

/-- The left operand's row is the result's row. -/
theorem lhs_row (i : S1024x768.Idx) (q : dot_S1024x384_S768x384_S1024x768_1_1_0_0_n_n.contr.Idx) :
    (dot_S1024x384_S768x384_S1024x768_1_1_0_0_n_n.lhsIdx i q 0).val = (i 0).val := by
  unfold DotDims.lhsIdx
  rw [dif_neg (show ¬(0 : Fin S1024x384.rank) ∈ dot_S1024x384_S768x384_S1024x768_1_1_0_0_n_n.lhsBatch by decide), dif_pos (show (0 : Fin S1024x384.rank) ∈ dot_S1024x384_S768x384_S1024x768_1_1_0_0_n_n.lhsNonContracting by decide)]
  rfl

/-- The right operand's row is the result's column. -/
theorem rhs_row (i : S1024x768.Idx) (q : dot_S1024x384_S768x384_S1024x768_1_1_0_0_n_n.contr.Idx) :
    (dot_S1024x384_S768x384_S1024x768_1_1_0_0_n_n.rhsIdx i q 0).val = (i 1).val := by
  unfold DotDims.rhsIdx
  rw [dif_neg (show ¬(0 : Fin S768x384.rank) ∈ dot_S1024x384_S768x384_S1024x768_1_1_0_0_n_n.rhsBatch by decide), dif_pos (show (0 : Fin S768x384.rank) ∈ dot_S1024x384_S768x384_S1024x768_1_1_0_0_n_n.rhsNonContracting by decide)]
  rfl

/-- The product of a `[1024, 384]` and a `[768, 384]` array over their second axes, into zeros, at `(q, f)`. -/
theorem matmul_rows (A : FVec Ideal S1024x384 .bf16) (B : FVec Ideal S768x384 .bf16) (q : Fin 1024) (f : Fin 768) :
    matmul dot_S1024x384_S768x384_S1024x768_1_1_0_0_n_n none A B (constant (F := Ideal) S1024x768 .f32 0x00000000#32) (ix2 q f)
      = ∑ k : Fin 384, A (ix2 q k) * B (ix2 f k) := by
  refine (Ideal.matmul_constant_zero_apply dot_S1024x384_S768x384_S1024x768_1_1_0_0_n_n none A B (ix2 q f)).trans ?_
  rw [← Equiv.sum_comp (contrEquiv1 dot_S1024x384_S768x384_S1024x768_1_1_0_0_n_n 384 rfl rfl).symm]
  refine Finset.sum_congr rfl fun k _ => ?_
  have hk := contrEquiv1_symm_val dot_S1024x384_S768x384_S1024x768_1_1_0_0_n_n 384 rfl rfl k
  have el : dot_S1024x384_S768x384_S1024x768_1_1_0_0_n_n.lhsIdx (ix2 q f) ((contrEquiv1 dot_S1024x384_S768x384_S1024x768_1_1_0_0_n_n 384 rfl rfl).symm k) = ix2 q k := funext fun a => Fin.ext (by
    match a with
    | ⟨0, _⟩ => exact lhs_row _ _
    | ⟨1, _⟩ => exact (dot_S1024x384_S768x384_S1024x768_1_1_0_0_n_n.lhsIdx_val_of_single rfl _ _).trans hk)
  have er : dot_S1024x384_S768x384_S1024x768_1_1_0_0_n_n.rhsIdx (ix2 q f) ((contrEquiv1 dot_S1024x384_S768x384_S1024x768_1_1_0_0_n_n 384 rfl rfl).symm k) = ix2 f k := funext fun a => Fin.ext (by
    match a with
    | ⟨0, _⟩ => exact rhs_row _ _
    | ⟨1, _⟩ => exact (dot_S1024x384_S768x384_S1024x768_1_1_0_0_n_n.rhsIdx_val_of_single rfl _ _).trans hk)
  rw [el, er]

/-- The stored value at `(z, q, f)` (the leading axis has the one coordinate `z = 0`): the sum over the channels of
    the input block's `(z, q, k)` times the masked weight's `(f, k)`. -/
theorem pay_apply (v0 v1 : Vec Ideal S768x384 .f32) (v4 : Vec Ideal S1x1024x384 .bf16) (z : Fin 1) (q : Fin 1024) (f : Fin 768) :
    k0_pay1 (F := Ideal) v0 v1 v4 (ix3 z q f) = ∑ k : Fin 384, v4 (ix3 z q k) * (v0 (ix2 f k) * v1 (ix2 f k)) := by
  have hz := z.isLt
  unfold k0_pay1
  refine (shapeCast_apply _ shapeCasts_S1024x768_S1x1024x768 (ix3 z q f) (ix2 q f) ?_).trans ?_
  · rw [Shape.rowMajor_val_two, Shape.rowMajor_val_three]
    show q.val * 768 + f.val = (z.val * 1024 + q.val) * 768 + f.val
    omega
  · refine (matmul_rows _ _ q f).trans ?_
    refine Finset.sum_congr rfl fun k _ => ?_
    refine congrArg (· * (v0 (ix2 f k) * v1 (ix2 f k))) ?_
    refine shapeCast_apply v4 shapeCasts_S1x1024x384_S1024x384 (ix2 q k) (ix3 z q k) ?_
    rw [Shape.rowMajor_val_two, Shape.rowMajor_val_three]
    show (z.val * 1024 + q.val) * 384 + k.val = q.val * 384 + k.val
    omega

end Cert.KernelIdeal.Conv

end
-- ==== Proof.Prefix.lean ====
/-
  What the region finds in its first operand.

  Before the region the input is viewed flat as `[384, 8192]`, its columns split as `[384, 8, 1024]`, the flat row
  moved last — `[8, 1024, 384]` — and the number format changed (the identity on the extended reals). So the
  operand's entry `(b, q, k)` is the input's entry at flat position `k * 8192 + b * 1024 + q`.
-/
import proofs.«127183_g33251636806223_cont_8to1_b_888_15_alg».proof.Proof.Gen.KernelIdeal.Frame
import proofs.«127183_g33251636806223_cont_8to1_b_888_15_alg».proof.Proof.Spec
import Idealize.ShloMosaic.Lib.Pipeline.Value
import Idealize.ShloMosaic.Lib.ValueIdx
import Idealize.ShloMosaic.Lib.StableHlo.Run

noncomputable section

namespace Cert.KernelIdeal.Conv

open Idealize.ShloMosaic Idealize.ShloMosaic.TcCoe Idealize.ShloMosaic.ValueIdx Idealize.SL.Sem
open Cert.KernelIdeal Cert.KernelIdeal.Gen Cert.MaskedConv

/-- The four layout steps, read at `(b, q, k)`, over any input array. -/
theorem relaid_apply (x : FVec Ideal S8x384x32x32 .f32) (b : Fin 8) (q : Fin 1024) (k : Fin 384) :
    (truncf .bf16 (transpose S8x1024x384 [1, 2, 0] (shapeCast S384x8x1024 (shapeCast S384x8192 x shapeCasts_S8x384x32x32_S384x8192) shapeCasts_S384x8192_S384x8x1024) transposes_S384x8x1024_S8x1024x384_1_2_0) bitsLt_bf16_f32 : FVec Ideal S8x1024x384 .bf16) (ix3 b q k)
      = x (src k b q) := by
  have hb := b.isLt; have hq := q.isLt; have hk := k.isLt
  show transpose S8x1024x384 [1, 2, 0] (shapeCast S384x8x1024 (shapeCast S384x8192 x shapeCasts_S8x384x32x32_S384x8192) shapeCasts_S384x8192_S384x8x1024) transposes_S384x8x1024_S8x1024x384_1_2_0 (ix3 b q k) = _
  refine (transpose_apply [1, 2, 0] _ transposes_S384x8x1024_S8x1024x384_1_2_0 (ix3 b q k) (ix3 k b q) (fun a => match a with
    | ⟨0, _⟩ => rfl
    | ⟨1, _⟩ => rfl
    | ⟨2, _⟩ => rfl)).trans ?_
  refine (shapeCast_apply _ shapeCasts_S384x8192_S384x8x1024 (ix3 k b q) (ix2 k (⟨b.val * 1024 + q.val, by omega⟩ : Fin 8192)) ?_).trans ?_
  · rw [Shape.rowMajor_val_two, Shape.rowMajor_val_three]
    show k.val * 8192 + (b.val * 1024 + q.val) = (k.val * 8 + b.val) * 1024 + q.val
    omega
  · refine shapeCast_apply x shapeCasts_S8x384x32x32_S384x8192 (ix2 k (⟨b.val * 1024 + q.val, by omega⟩ : Fin 8192)) (src k b q) ?_
    rw [Shape.rowMajor_val_four, Shape.rowMajor_val_two]
    show (((k.val * 8 + b.val) / 384 * 384 + (k.val * 8 + b.val) % 384) * 32 + q.val / 32) * 32 + q.val % 32 = k.val * 8192 + (b.val * 1024 + q.val)
    omega

variable (m : (ℓ : Loc nD τ sig) → Buf (Elt Ideal) ℓ)

/-- The first operand as the region finds it: the four steps of the launched input. -/
theorem V_main_v3 (c : Dev nD) :
    @Eq (FVec Ideal S8x1024x384 .bf16) (V m c main_v3)
      (truncf (F := Ideal) .bf16 (transpose S8x1024x384 [1, 2, 0] (shapeCast S384x8x1024 (shapeCast S384x8192 (m ((c : Thread nD τ).loc main_arg0) : FVec Ideal S8x384x32x32 .f32) shapeCasts_S8x384x32x32_S384x8192) shapeCasts_S384x8192_S384x8x1024) transposes_S384x8x1024_S8x1024x384_1_2_0) bitsLt_bf16_f32) := by
  show StableHlo.after hostOps0 (fun b => m (c, b)) (Proc.devRef .tc main_v3) = _
  after_results
  rfl

/-- Its entry `(b, q, k)` is the launched input's entry at flat position `k * 8192 + b * 1024 + q`. -/
theorem V_main_v3_apply (c : Dev nD) (b : Fin 8) (q : Fin 1024) (k : Fin 384) :
    (V m c main_v3 : FVec Ideal S8x1024x384 .bf16) (ix3 b q k) = (m ((c : Thread nD τ).loc main_arg0) : FVec Ideal S8x384x32x32 .f32) (src k b q) :=
  (congrFun (V_main_v3 m c) (ix3 b q k)).trans (relaid_apply _ b q k)

end Cert.KernelIdeal.Conv

end
-- ==== Proof.Blocks.lean ====
/-
  The region's output array, as one function of the launched arguments.

  Grid point `t` (of 8) stages slab `t` of the relaid input — its block `[1, 1024, 384]` sits at `(t, 0, 0)` — and the
  whole weight and mask, and writes back slab `t` of the output `[8, 1024, 768]`. So output entry `(b, q, f)` is written
  by point `b` alone and holds the sum over the channels `k` of the relaid input's `(b, q, k)`, which is the launched
  input at flat position `k * 8192 + b * 1024 + q`, times the masked weight's `(f, k)`: the specification's entry at
  batch slot `b`, filter `f`, pixel `q`. The eight slabs tile the array.
-/
import proofs.«127183_g33251636806223_cont_8to1_b_888_15_alg».proof.Proof.Payload
import proofs.«127183_g33251636806223_cont_8to1_b_888_15_alg».proof.Proof.Prefix

noncomputable section

namespace Cert.KernelIdeal.Conv

open Idealize.ShloMosaic Idealize.ShloMosaic.TcCoe Idealize.ShloMosaic.ValueIdx Idealize.SL.Sem
open Idealize.ShloMosaic.Pipeline (Dat)
open Cert.KernelIdeal Cert.KernelIdeal.Gen Cert.MaskedConv

/-- The output array `[8, 1024, 768]` the region leaves: entry `(b, q, f)` is the specification's entry at `b`, `f`, `q`. -/
def Z (x : FVec Ideal SIn .f32) (kv mk : FVec Ideal SW .f32) : FVec Ideal S8x1024x768 .bf16 :=
  fun i => entry x kv mk (i 0) (i 2) (i 1)

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices at every grid point: the input's and the output's slab is the point's number, everything
    else sits at zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as a batch slot. -/
def slot (t : Fin cfg0.N) : Fin 8 := ⟨t.val, by have h := t.isLt; have hN : cfg0.N = 8 := N_0; omega⟩

variable (m : (ℓ : Loc nD τ sig) → Buf (Elt Ideal) ℓ)

/-- The input block at point `t`, entry `(z, q, k)`: the launched input at flat position `k * 8192 + t * 1024 + q`. -/
theorem iblk0_apply (c : Dev nD) (t : Fin cfg0.N) (z : Fin 1) (q : Fin 1024) (k : Fin 384) :
    (iblk m c 0 t : FVec Ideal S1x1024x384 .bf16) (ix3 z q k)
      = (m ((c : Thread nD τ).loc main_arg0) : FVec Ideal S8x384x32x32 .f32) (src k (slot t) q) := by
  obtain ⟨e0, e1, e2, -⟩ := idx_facts t
  have hz := z.isLt
  refine Eq.trans ?_ (V_main_v3_apply m c (slot t) q k)
  show (V m c main_v3 : FVec Ideal S8x1024x384 .bf16) (((cfg0.win 0).blk t).view.emb (ix3 z q k)) = _
  refine congrArg (V m c main_v3 : FVec Ideal S8x1024x384 .bf16) ?_
  funext a; apply Fin.ext
  match a with
  | ⟨0, _⟩ => show win0_0.index t (0 : Fin 3) * 1 + 1 * z.val = t.val; omega
  | ⟨1, _⟩ => show win0_0.index t (1 : Fin 3) * 1024 + 1 * q.val = q.val; omega
  | ⟨2, _⟩ => show win0_0.index t (2 : Fin 3) * 384 + 1 * k.val = k.val; omega

/-- The weight block at any point is the launched weight. -/
theorem iblk1_apply (c : Dev nD) (t : Fin cfg0.N) (f : Fin 768) (k : Fin 384) :
    (iblk m c 1 t : FVec Ideal S768x384 .f32) (ix2 f k) = (m ((c : Thread nD τ).loc main_arg1) : FVec Ideal S768x384 .f32) (ix2 f k) := by
  obtain ⟨-, -, -, e0, e1, -⟩ := idx_facts t
  refine Eq.trans ?_ (congrFun (V_main_arg1 m c) (ix2 f k))
  show (V m c main_arg1 : FVec Ideal S768x384 .f32) (((cfg0.win 1).blk t).view.emb (ix2 f k)) = _
  refine congrArg (V m c main_arg1 : FVec Ideal S768x384 .f32) ?_
  funext a; apply Fin.ext
  match a with
  | ⟨0, _⟩ => show win0_1.index t (0 : Fin 2) * 768 + 1 * f.val = f.val; omega
  | ⟨1, _⟩ => show win0_1.index t (1 : Fin 2) * 384 + 1 * k.val = k.val; omega

/-- The mask block at any point is the launched mask. -/
theorem iblk2_apply (c : Dev nD) (t : Fin cfg0.N) (f : Fin 768) (k : Fin 384) :
    (iblk m c 2 t : FVec Ideal S768x384 .f32) (ix2 f k) = (m ((c : Thread nD τ).loc main_arg2) : FVec Ideal S768x384 .f32) (ix2 f k) := by
  obtain ⟨-, -, -, -, -, e0, e1, -⟩ := idx_facts t
  refine Eq.trans ?_ (congrFun (V_main_arg2 m c) (ix2 f k))
  show (V m c main_arg2 : FVec Ideal S768x384 .f32) (((cfg0.win 2).blk t).view.emb (ix2 f k)) = _
  refine congrArg (V m c main_arg2 : FVec Ideal S768x384 .f32) ?_
  funext a; apply Fin.ext
  match a with
  | ⟨0, _⟩ => show win0_2.index t (0 : Fin 2) * 768 + 1 * f.val = f.val; omega
  | ⟨1, _⟩ => show win0_2.index t (1 : Fin 2) * 384 + 1 * k.val = k.val; omega

/-- Where the output block's entry `(z, q, f)` at point `t` sits in the array: `(t, q, f)`. -/
theorem emb3_apply (t : Fin cfg0.N) (z : Fin 1) (q : Fin 1024) (f : Fin 768) :
    ((cfg0.win 3).blk t).view.emb (ix3 z q f) = (ix3 (slot t) q f : S8x1024x768.Idx) := by
  obtain ⟨-, -, -, -, -, -, -, e0, e1, e2⟩ := idx_facts t
  have hz := z.isLt
  funext a; apply Fin.ext
  match a with
  | ⟨0, _⟩ => show win0_3.index t (0 : Fin 3) * 1 + 1 * z.val = t.val; omega
  | ⟨1, _⟩ => show win0_3.index t (1 : Fin 3) * 1024 + 1 * q.val = q.val; omega
  | ⟨2, _⟩ => show win0_3.index t (2 : Fin 3) * 768 + 1 * f.val = f.val; omega

/-- WHAT POINT `t` WRITES BACK is slab `t` of `Z` of the launched arguments. -/
theorem flushed_eq (c : Dev nD) (t : Fin cfg0.N) :
    (dats m 0 c).flushed 3 t = ((cfg0.win 3).blk t).view.read (Elt Ideal)
      (Z (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz3]
  simp only [View.ld_unit_zero (S := S768x384) hz2, View.ld_unit_zero (S := S1x1024x384) hz3]
  funext (j : S1x1024x768.Idx)
  obtain ⟨z, q, f, rfl⟩ : ∃ (z : Fin 1) (q : Fin 1024) (f : Fin 768), j = ix3 z q f := ⟨j 0, j 1, j 2, eq_ix3 j⟩
  show k0_pay1 (F := Ideal) (iblk m c 1 t) (iblk m c 2 t) (iblk m c 0 t) (ix3 z q f)
    = Z (m ((c : Thread nD τ).loc main_arg0)) (m ((c : Thread nD τ).loc main_arg1)) (m ((c : Thread nD τ).loc main_arg2)) (((cfg0.win 3).blk t).view.emb (ix3 z q f))
  rw [emb3_apply]
  refine (pay_apply (iblk m c 1 t) (iblk m c 2 t) (iblk m c 0 t) z q f).trans ?_
  show _ = entry _ _ _ (slot t) f q
  unfold entry
  refine Finset.sum_congr rfl fun k _ => ?_
  exact congrArg₂ (· * ·) (iblk0_apply m c t z q k) (congrArg₂ (· * ·) (iblk1_apply m c t f k) (iblk2_apply m c t f k))

/-- An index of the array is in point `t`'s block iff each coordinate is in the block's range on its axis. -/
theorem mem_blk (t : Fin cfg0.N) (i : S8x1024x768.Idx) :
    i ∈ ((cfg0.win 3).blk t).view.set ↔ ∀ a : Fin 3, win0_3.index t a * S1x1024x768.size a ≤ (i a).val ∧ (i a).val < win0_3.index t a * S1x1024x768.size a + S1x1024x768.size a := by
  show i ∈ ((View.whole main_v4).slice (win0_3.rect t)).set ↔ _
  rw [View.set_slice_whole, Rect.mem_set_unit]
  exact Iff.rfl

/-- Every entry of the array is in the block of the point its first coordinate names. -/
theorem cover (i : S8x1024x768.Idx) :
    ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 768 := (i 2).isLt
  have hN : cfg0.N = 8 := N_0
  let t : Fin cfg0.N := ⟨(i 0).val, by omega⟩
  have ht : t.val = (i 0).val := rfl
  obtain ⟨-, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 768 ≤ (i 2).val ∧ (i 2).val < win0_3.index t (2 : Fin 3) * 768 + 768; omega

/-- THE ARRAY after the region: `Z` of the launched arguments. -/
theorem final (c : Dev nD) :
    (dats m 0 c).arrAt 3 cfg0.N
      = Z (m ((c : Thread nD τ).loc main_arg0)) (m ((c : Thread nD τ).loc main_arg1)) (m ((c : Thread nD τ).loc main_arg2)) :=
  (dats m 0 c).arrAt_eq_of_cover 3 _ (fun t _ => flushed_eq m c t) cover

end Cert.KernelIdeal.Conv

end
-- ==== Proof.Tail.lean ====
/-
  The kernel's result, and its run.

  After the region the output `[8, 1024, 768]` has its last two axes swapped — `[8, 768, 1024]` —, its number
  format changed (the identity on the extended reals) and its pixel axis split as `(32, 32)`. Read at `(b, f, h, w)`:
  the split reads `(b, f, h * 32 + w)`, the swap reads `(b, h * 32 + w, f)` of the region's output, which is the
  specification's entry at batch slot `b`, filter `f`, pixel `h * 32 + w`.
-/
import proofs.«127183_g33251636806223_cont_8to1_b_888_15_alg».proof.Proof.Blocks

noncomputable section

namespace Cert.KernelIdeal.Conv

open Idealize.ShloMosaic Idealize.ShloMosaic.TcCoe Idealize.ShloMosaic.ValueIdx Idealize.SL.Sem
open Idealize.ShloMosaic.Pipeline (Dat)
open Cert.KernelIdeal Cert.KernelIdeal.Gen Cert.MaskedConv

/-- The three steps after the region, applied to the region's output array, give the specification's function. -/
theorem tail_apply (x : FVec Ideal SIn .f32) (kv mk : FVec Ideal SW .f32) :
    (shapeCast S8x768x32x32 (extf (F := Ideal) .f32 (transpose S8x768x1024 [0, 2, 1] (Z x kv mk) transposes_S8x1024x768_S8x768x1024_0_2_1) bitsLt_bf16_f32) shapeCasts_S8x768x1024_S8x768x32x32 : FVec Ideal S8x768x32x32 .f32)
      = G x kv mk := by
  funext i
  obtain ⟨b, f, h, w, rfl⟩ : ∃ (b : Fin 8) (f : Fin 768) (h w : Fin 32), i = ix4 b f h w := ⟨i 0, i 1, i 2, i 3, eq_ix4 i⟩
  have hh := h.isLt; have hw := w.isLt
  refine (shapeCast_apply _ shapeCasts_S8x768x1024_S8x768x32x32 (ix4 b f h w) (ix3 b f (pix h w)) ?_).trans ?_
  · rw [Shape.rowMajor_val_three, Shape.rowMajor_val_four]
    show (b.val * 768 + f.val) * 1024 + (h.val * 32 + w.val) = ((b.val * 768 + f.val) * 32 + h.val) * 32 + w.val
    omega
  · show transpose S8x768x1024 [0, 2, 1] (Z x kv mk) transposes_S8x1024x768_S8x768x1024_0_2_1 (ix3 b f (pix h w)) = _
    exact transpose_apply [0, 2, 1] (Z x kv mk) transposes_S8x1024x768_S8x768x1024_0_2_1 (ix3 b f (pix h w)) (ix3 b (pix h w) f) (fun a => match a with
      | ⟨0, _⟩ => rfl
      | ⟨1, _⟩ => rfl
      | ⟨2, _⟩ => rfl)

variable (m : (ℓ : Loc nD τ sig) → Buf (Elt Ideal) ℓ) (ρ : Dev nD → PrngReg)

/-- The result buffer after the lines that follow the region: the specification's function of the launched arguments. -/
theorem tail_eq (c : Dev nD) :
    @Eq (FVec Ideal S8x768x32x32 .f32) (Pipeline.afterTail₀ cfgs (dats m) 0 (V0 m) [hostOps1] c main_v7)
      (G (m ((c : Thread nD τ).loc main_arg0)) (m ((c : Thread nD τ).loc main_arg1)) (m ((c : Thread nD τ).loc main_arg2))) := by
  unfold Pipeline.afterTail₀
  show StableHlo.after hostOps1 _ (Proc.devRef .tc main_v7) = _
  after_results
  refine Eq.trans (congrArg (fun A : FVec Ideal S8x1024x768 .bf16 => (shapeCast S8x768x32x32 (extf (F := Ideal) .f32 (transpose S8x768x1024 [0, 2, 1] A transposes_S8x1024x768_S8x768x1024_0_2_1) bitsLt_bf16_f32) shapeCasts_S8x768x1024_S8x768x32x32 : FVec Ideal S8x768x32x32 .f32))
    ((Pipeline.withArrays_arr spec0 launch0.win.arr_inj c _ _ 3).trans (final m c))) (tail_apply _ _ _)

/-- The kernel's run: every weakly fair execution terminates with the result buffer at the specification's function of
    the launched arguments, and the arguments unchanged. -/
theorem run : θ_run defs (onTc (τ := τ) (main (F := Ideal))) ⟨m, fun _ => 0, ρ⟩ fun r => ∀ c : Dev nD,
      r.2.mem ((c.tc : Thread nD τ).loc main_v7)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v7 (Pipeline.mem_restRefs_of main_v7 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.Conv

end
-- ==== Proof.lean ====
/- The proof of `Cert.Claim` (proofs.«127183_g33251636806223_cont_8to1_b_888_15_alg».proof.Defs).

   Both programs compute a 1×1 convolution with a masked weight through the FLAT view of the input: with the input
   `[8, 384, 32, 32]` read row-major as `[384, 8192]` and a column split as `b * 1024 + h * 32 + w`, output entry
   `(b, f, h, w)` is the sum over the 384 flat rows `k` of `x[k * 8192 + b * 1024 + h * 32 + w]` and the masked weight
   `kv (f, k) * mk (f, k)` (Proof/Spec.lean, `G`).

   The reference forms `(kv * mk) · flat` as one `[768, 384] × [384, 8192]` product, splits the columns and swaps the
   first two axes (Proof/RefIsG.lean, over the generated stage-by-stage reading of its run). The kernel moves the flat
   row last — `[8, 1024, 384]` —, and at each of 8 grid points contracts one slab `[1024, 384]` with the masked weight
   over the channels, writing one slab of `[8, 1024, 768]`; the last two axes are then swapped and the pixel axis split
   (Proof/Payload.lean: the stored value at an index; Proof/Prefix.lean: what the region finds; Proof/Blocks.lean: the
   eight slabs tile the output array; Proof/Tail.lean: the steps after the region, and the run). On the extended reals
   the changes of number format are the identity, the accumulator starts at zero, and the two sums differ only in the order
   of the two factors of each term: multiplication commutes, so no finiteness is used and the precondition is never opened.

   The three frames are the generated ones (the reference's is its generated run with the result dropped); the
   idealization rewrote no operation, so there is nothing to preserve. -/
import proofs.«127183_g33251636806223_cont_8to1_b_888_15_alg».proof.Defs
import proofs.«127183_g33251636806223_cont_8to1_b_888_15_alg».proof.Proof.Gen.Kernel
import proofs.«127183_g33251636806223_cont_8to1_b_888_15_alg».proof.Proof.Gen.Kernel.Skeleton
import proofs.«127183_g33251636806223_cont_8to1_b_888_15_alg».proof.Proof.Gen.Kernel.Launch
import proofs.«127183_g33251636806223_cont_8to1_b_888_15_alg».proof.Proof.Gen.Kernel.Points
import proofs.«127183_g33251636806223_cont_8to1_b_888_15_alg».proof.Proof.Gen.Kernel.Frame
import proofs.«127183_g33251636806223_cont_8to1_b_888_15_alg».proof.Proof.Gen.KernelIdeal
import proofs.«127183_g33251636806223_cont_8to1_b_888_15_alg».proof.Proof.Gen.KernelIdeal.Skeleton
import proofs.«127183_g33251636806223_cont_8to1_b_888_15_alg».proof.Proof.Gen.KernelIdeal.Launch
import proofs.«127183_g33251636806223_cont_8to1_b_888_15_alg».proof.Proof.Gen.KernelIdeal.Points
import proofs.«127183_g33251636806223_cont_8to1_b_888_15_alg».proof.Proof.Gen.KernelIdeal.Frame
import proofs.«127183_g33251636806223_cont_8to1_b_888_15_alg».proof.Proof.Gen.ReferenceIdeal
import proofs.«127183_g33251636806223_cont_8to1_b_888_15_alg».proof.Proof.Gen.ReferenceIdeal.Run
import proofs.«127183_g33251636806223_cont_8to1_b_888_15_alg».proof.Proof.Gen.ReferenceIdeal.Read
import proofs.«127183_g33251636806223_cont_8to1_b_888_15_alg».proof.Proof.Gen.Pre_finite_inputs
import proofs.«127183_g33251636806223_cont_8to1_b_888_15_alg».proof.Proof.RefIsG
import proofs.«127183_g33251636806223_cont_8to1_b_888_15_alg».proof.Proof.Tail
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result buffer at the specification's
    function `G` of those arguments: the kernel by its run, the reference by its run read stage by stage. -/
theorem algebraic : Cert.algebraic_KernelIdeal_ReferenceIdeal := by
  intro m ρ m' ρ' _ hagree
  refine ⟨_, Cert.KernelIdeal.Conv.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
